-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S2000x128 : Shape := ⟨2, ![2000, 128]⟩
abbrev S1600000x128 : Shape := ⟨2, ![1600000, 128]⟩
abbrev S1x128 : Shape := ⟨2, ![1, 128]⟩
abbrev S2000x1 : Shape := ⟨2, ![2000, 1]⟩
abbrev S50000x64 : Shape := ⟨2, ![50000, 64]⟩
abbrev S2000x64 : Shape := ⟨2, ![2000, 64]⟩
abbrev S1600000x64 : Shape := ⟨2, ![1600000, 64]⟩
abbrev S1x64 : Shape := ⟨2, ![1, 64]⟩

abbrev nBuf : Space → Nat
  | .hbm => 85
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S50000, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S_, .f32⟩
  | .hbm, ⟨21, _⟩ => ⟨S1600000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000, .f32⟩
  | .hbm, ⟨46, _⟩ => ⟨S50000x1, .f32⟩
  | .hbm, ⟨47, _⟩ => ⟨S50000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S1600000x1, .f32⟩
  | .hbm, ⟨58, _⟩ => ⟨S1600000x128, .f32⟩
  | .hbm, ⟨59, _⟩ => ⟨S1600000x128, .f32⟩
  | .hbm, ⟨60, _⟩ => ⟨S_, .f32⟩
  | .hbm, ⟨61, _⟩ => ⟨S50000x128, .f32⟩
  | .hbm, ⟨62, _⟩ => ⟨S1600000x1, .i32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x64, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x64, .f32⟩
  | .hbm, ⟨76, _⟩ => ⟨S1600000x1, .f32⟩
  | .hbm, ⟨77, _⟩ => ⟨S1600000x64, .f32⟩
  | .hbm, ⟨78, _⟩ => ⟨S1600000x64, .f32⟩
  | .hbm, ⟨79, _⟩ => ⟨S_, .f32⟩
  | .hbm, ⟨80, _⟩ => ⟨S50000x64, .f32⟩
  | .hbm, ⟨81, _⟩ => ⟨S1600000x1, .i32⟩
  | .hbm, ⟨82, _⟩ => ⟨S50000x64, .f32⟩
  | .hbm, ⟨83, _⟩ => ⟨S1x64, .f32⟩
  | .hbm, ⟨84, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x1, .f32⟩
  | .local _ .vmem, ⟨24, _⟩ => ⟨S2000x1, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_10 : Ref sig .tc := ⟨.hbm, 67, rfl⟩
abbrev main_v49 : Ref sig .tc := ⟨.hbm, 68, rfl⟩
abbrev main_v50 : Ref sig .tc := ⟨.hbm, 69, rfl⟩
abbrev main_c_11 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_12 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000 : S_.BroadcastsInDim S50000 (![] : Fin 0 → Fin S50000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S128_S1x128_1 : S128.BroadcastsInDim S1x128 (![1] : Fin 1 → Fin S1x128.rank)
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  shapeCasts_S2000x128_S2000x128 : S2000x128.ShapeCasts S2000x128
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  bcast_S64_S1x64_1 : S64.BroadcastsInDim S1x64 (![1] : Fin 1 → Fin S1x64.rank)
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  dot_S2000x128_S128x128_S2000x128_1_0_0_1_n_n_wf : DotDims.WF S2000x128 S128x128 S2000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S2000x128_S128x64_S2000x64_1_0_0_1_n_n_wf : DotDims.WF S2000x128 S128x64 S2000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S50000x64.size a
  hwx3_1 : ∀ i : grid3.Coords, EltTy.bits .f32 = 32 ∨ (Rect.block (s := S50000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S50000x64.size a
  hwx3_4 : ∀ i : grid3.Coords, EltTy.bits .f32 = 32 ∨ (Rect.block (s := S50000x64) S2000x64.size (cc3_transform_4 i) (hinb3_4 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v47) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v31) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S1600000x128 : Shape := ⟨2, ![1600000, 128]⟩
abbrev S50000x1 : Shape := ⟨2, ![50000, 1]⟩
abbrev S1x128 : Shape := ⟨2, ![1, 128]⟩
abbrev S50000x64 : Shape := ⟨2, ![50000, 64]⟩
abbrev S1600000x64 : Shape := ⟨2, ![1600000, 64]⟩
abbrev S1x64 : Shape := ⟨2, ![1, 64]⟩

abbrev nBuf : Space → Nat
  | .hbm => 135
  | .vmem => 0
  | .smem => 0
  | _ => 0

abbrev hbmTy0_0 (i : Nat) : BufTy := match i % 128 with
  | 0 => ⟨S50000x128, .f32⟩
  | 1 => ⟨S2x1600000, .i32⟩
  | 2 => ⟨S128x128, .f32⟩
  | 3 => ⟨S128, .f32⟩
  | 4 => ⟨S128x64, .f32⟩
  | 5 => ⟨S64, .f32⟩
  | 6 => ⟨S1x1600000, .i32⟩
  | 7 => ⟨S1600000, .i32⟩
  | 8 => ⟨S1x1600000, .i32⟩
  | 9 => ⟨S1600000, .i32⟩
  | 10 => ⟨S50000x128, .f32⟩
  | 11 => ⟨S_, .f32⟩
  | 12 => ⟨S50000, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S_, .f32⟩
  | 22 => ⟨S1600000, .f32⟩
  | 23 => ⟨S50000, .f32⟩
  | 24 => ⟨S_, .f32⟩
  | 25 => ⟨S50000, .f32⟩
  | 26 => ⟨S50000, .f32⟩
  | 27 => ⟨S50000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x128, .f32⟩
  | 56 => ⟨S1600000x1, .f32⟩
  | 57 => ⟨S1600000x128, .f32⟩
  | 58 => ⟨S1600000x128, .f32⟩
  | 59 => ⟨S_, .f32⟩
  | 60 => ⟨S50000x128, .f32⟩
  | 61 => ⟨S1600000x1, .i32⟩
  | 62 => ⟨S50000x128, .f32⟩
  | 63 => ⟨S50000, .f32⟩
  | 64 => ⟨S50000x1, .f32⟩
  | 65 => ⟨S50000x128, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x64, .f32⟩
  | 75 => ⟨S_, .f32⟩
  | 76 => ⟨S50000, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S_, .f32⟩
  | 86 => ⟨S1600000, .f32⟩
  | 87 => ⟨S50000, .f32⟩
  | 88 => ⟨S_, .f32⟩
  | 89 => ⟨S50000, .f32⟩
  | 90 => ⟨S50000, .f32⟩
  | 91 => ⟨S50000, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000, .f32⟩
  | 110 => ⟨S1600000, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x64, .f32⟩
  | 120 => ⟨S1600000x1, .f32⟩
  | 121 => ⟨S1600000x64, .f32⟩
  | 122 => ⟨S1600000x64, .f32⟩
  | 123 => ⟨S_, .f32⟩
  | 124 => ⟨S50000x64, .f32⟩
  | 125 => ⟨S1600000x1, .i32⟩
  | 126 => ⟨S50000x64, .f32⟩
  | 127 => ⟨S50000, .f32⟩
  | _ => ⟨S50000x128, .f32⟩

abbrev hbmTy0_1 (i : Nat) : BufTy := match i % 128 with
  | 0 => ⟨S50000x1, .f32⟩
  | 1 => ⟨S50000x64, .f32⟩
  | 2 => ⟨S50000x64, .f32⟩
  | 3 => ⟨S50000x64, .f32⟩
  | 4 => ⟨S1x64, .f32⟩
  | 5 => ⟨S50000x64, .f32⟩
  | 6 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_call0_cst : Ref sig .tc := ⟨.hbm, 71, rfl⟩
abbrev main_call0_v0 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_c_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_cst_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_15 : Ref sig .tc := ⟨.hbm, 92, rfl⟩
abbrev main_v67 : Ref sig .tc := ⟨.hbm, 93, rfl⟩
abbrev main_v68 : Ref sig .tc := ⟨.hbm, 94, rfl⟩
abbrev main_c_16 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_17 : Ref sig .tc := ⟨.hbm, 101, rfl⟩
abbrev main_v74 : Ref sig .tc := ⟨.hbm, 102, rfl⟩
abbrev main_v75 : Ref sig .tc := ⟨.hbm, 103, rfl⟩
abbrev main_c_18 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_c_19 : Ref sig .tc := ⟨.hbm, 111, rfl⟩
abbrev main_v82 : Ref sig .tc := ⟨.hbm, 112, rfl⟩
abbrev main_v83 : Ref sig .tc := ⟨.hbm, 113, rfl⟩
abbrev main_c_20 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_21 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000 : S_.BroadcastsInDim S50000 (![] : Fin 0 → Fin S50000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x64_S50000x64_1_0_0_1_n_n_wf : DotDims.WF S50000x128 S128x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

class Facts : Prop extends Facts₀ where

variable [Facts]
-- ==== Proof.KernelRun.lean ====
/-
  The idealized kernel's run with its result NAMED.  @main is seven segments: a stretch of host operations, the
  first projection x·W1 (grid of 25 row blocks), a stretch (gather, scale, scatter-add), the first combine
  (aggregate + self term + bias, then max with 0), the second projection, a stretch, the second combine.  The
  generated frame threads the buffer contents through the segments (a host stretch applies its operations; a
  region replaces its arrays by what its write-backs leave) and ends at the contents `W7`.  Here the same
  launch is read at the result buffer as well as at the arguments: every weakly fair execution terminates
  with the result array at `W7 … main_v63` and the six arguments unchanged.
-/
import proofs.«127377_j82540681494813_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's @main terminates, nothing faulting, with the result
    array at the last segment boundary's contents and each argument array as launched. -/
theorem run_result : θ_run defs (onTc (τ := τ) (main (F := F))) ⟨m, fun _ => 0, ρ⟩ (fun r => ∀ c : Dev nD,
      r.2.mem ((c.tc : Thread nD τ).loc main_v63) = W7 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v63 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Whole

end
-- ==== Proof.Project1.lean ====
/-
  The first projection region, x · W1, as one whole-array function.
  At grid point `t` the body loads rows `2000·t … 2000·t + 1999` of the left array and the whole right
  array, and writes their product — into a zero accumulator, so entry (p, q) of the block is the plain sum
  `∑ k, left (p, k) · right (k, q)` over the 128 contracted positions (the change of float format before
  the product is the identity on the extended reals).  The 25 blocks tile the 50000 rows, and a row of the
  product depends on that row of the left array only, so the result array ends as the whole product: the
  reference's `dot_general` of the same two arrays, the same sum at every index.
-/
import proofs.«127377_j82540681494813_1_alg».proof.Proof.Gen.KernelIdeal.Frame
import proofs.«127377_j82540681494813_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.ReferenceIdeal.Read (val_main_v4 val_main_v4_apply lidx_main_v4 ridx_main_v4)

variable (V : (c : Dev nD) → (b : Ref sig .tc) → Buf (Elt Ideal) ((c : Thread nD τ).loc b))

theorem origin0 : (![0, 0] : Fin 2 → Nat) = fun _ => 0 := funext fun a => by fin_cases a <;> rfl

theorem project1_lhs0 (i : S2000x128.Idx) (k : dot_S2000x128_S128x128_S2000x128_1_0_0_1_n_n.contr.Idx) : (dot_S2000x128_S128x128_S2000x128_1_0_0_1_n_n.lhsIdx i k 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem project1_rhs1 (i : S2000x128.Idx) (k : dot_S2000x128_S128x128_S2000x128_1_0_0_1_n_n.contr.Idx) : (dot_S2000x128_S128x128_S2000x128_1_0_0_1_n_n.rhsIdx i k 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- One entry of the body's product block: row `p` of the loaded rows against column `q` of the right array. -/
theorem project1_entry (x : FVec Ideal S2000x128 .f32) (w : FVec Ideal S128x128 .f32) (p : Fin 2000) (q : Fin 128) :
    k0_pay1 x w (ix2 p q) = ∑ k : Fin 128, x (ix2 p k) * w (ix2 k q) := by
  unfold k0_pay1
  show FloatOps.matmul dot_S2000x128_S128x128_S2000x128_1_0_0_1_n_n none (truncf .bf16 x bitsLt_bf16_f32) (truncf .bf16 w bitsLt_bf16_f32)
    (constant S2000x128 .f32 0x00000000#32) (ix2 p q) = _
  refine (Ideal.matmul_constant_zero_apply dot_S2000x128_S128x128_S2000x128_1_0_0_1_n_n none _ _ (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k :=
    funext fun a => Fin.ext (by
      match a with
      | ⟨0, _⟩ => exact project1_lhs0 _ _
      | ⟨1, _⟩ => exact (dot_S2000x128_S128x128_S2000x128_1_0_0_1_n_n.lhsIdx_val_of_single rfl _ _).trans hk)
  have er : dot_S2000x128_S128x128_S2000x128_1_0_0_1_n_n.rhsIdx (ix2 p q) ((contrEquiv1 dot_S2000x128_S128x128_S2000x128_1_0_0_1_n_n 128 rfl rfl).symm k) = ix2 k q :=
    funext fun a => Fin.ext (by
      match a with
      | ⟨0, _⟩ => exact (dot_S2000x128_S128x128_S2000x128_1_0_0_1_n_n.rhsIdx_val_of_single rfl _ _).trans hk
      | ⟨1, _⟩ => exact project1_rhs1 _ _)
  rw [el, er]
  rfl

/-- The printed index maps over the grid: the row windows sit at block `t`, the right array at block 0. -/
theorem blocks0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 24 :=
  (by decide +kernel : ∀ t : Fin grid0.N, _)

/-- Every block of rows is some point's. -/
theorem blocks0_onto : ∀ r : Fin 25, ∃ t : Fin cfg0.N, win0_2.index t = ![r.val, 0] :=
  (by decide +kernel : ∀ r : Fin 25, ∃ t : Fin grid0.N, win0_2.index t = ![r.val, 0])

section
variable (c : Dev nD)

/-- What point `t` writes back is block `t` of the whole product. -/
theorem project1_block (t : Fin cfg0.N) :
    (dat0 V c).flushed 2 t = ((cfg0.win 2).blk t).view.read (Elt Ideal) (val_main_v4 (V c main_arg0) (V c main_arg2)) := by
  show (cfg0.win 2).cut (grid0.coords t) ((dat0 V c).after 2 t) = _
  rw [after0_2]
  unfold out0_2
  rw [View.canon_unit_zero origin0]
  simp only [View.ld_unit_zero (S := S2000x128) origin0, View.ld_unit_zero (S := S128x128) origin0]
  obtain ⟨e0, e1, e2, e3, e4, e5⟩ := blocks0 t
  funext j
  rw [View.read_apply, cast_eq]
  obtain ⟨p, q, rfl⟩ : ∃ (p : Fin 2000) (q : Fin 128), j = ix2 p q := ⟨j 0, j 1, eq_ix2 j⟩
  have hp : p.val < 2000 := p.isLt
  have hq : q.val < 128 := q.isLt
  show k0_pay1 (iblk0 V c 0 t) (iblk0 V c 1 t) (ix2 p q)
    = (val_main_v4 (V c main_arg0) (V c main_arg2)) (((cfg0.win 2).blk t).view.emb (ix2 p q))
  refine (project1_entry (iblk0 V c 0 t) (iblk0 V c 1 t) p q).trans ?_
  rw [val_main_v4_apply]
  refine Finset.sum_congr rfl fun k _ => ?_
  have hk : k.val < 128 := k.isLt
  have L : iblk0 V c 0 t (ix2 p k)
      = (V c main_arg0) (lidx_main_v4 (((cfg0.win 2).blk t).view.emb (ix2 p q)) k) := by
    unfold iblk0
    rw [View.read_apply, cast_eq]
    show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  have Rr : iblk0 V c 1 t (ix2 k q)
      = V c main_arg2 (ridx_main_v4 (((cfg0.win 2).blk t).view.emb (ix2 p q)) k) := by
    unfold iblk0
    rw [View.read_apply, cast_eq]
    show V c main_arg2 (((cfg0.win 1).blk t).view.emb (ix2 k q)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [L, Rr]

/-- An index of the product array is in point `t`'s block iff each coordinate is in the block's range. -/
theorem project1_mem (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v32).slice (win0_2.rect t)).set ↔ _
  rw [View.set_slice_whole, Rect.mem_set_unit]
  exact Iff.rfl

/-- The 25 row blocks cover the array: row `r` is in block `r / 2000`. -/
theorem project1_cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := blocks0_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [project1_mem]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The region's result array, after the run of its 25 points, is the whole product. -/
theorem project1_array : (dat0 V c).arrAt 2 cfg0.N = val_main_v4 (V c main_arg0) (V c main_arg2) :=
  (dat0 V c).arrAt_eq_of_cover 2 (val_main_v4 (V c main_arg0) (V c main_arg2))
    (fun t _ => project1_block V c t) (project1_cover)

end

end Cert.KernelIdeal.Whole

end
-- ==== Proof.Combine1.lean ====
/-
  The first combine region as one whole-array function.  At grid point `t` the body reads rows
  `2000·t … 2000·t + 1999` of the aggregate `agg` and of the projection `h`, the same rows of the column
  `d` (the inverse square roots of the degrees, one per node) and the whole bias row `b`, and writes
  `max (agg + h · (d · d) + b, 0)` to the same rows of the result.  The 25 blocks tile the 50000 rows, so the
  result array ends as that function of the four arrays at every index — which is, entry by entry, the
  reference's first layer after its `max(·, 0)`: there the square `d · d` is taken before the column is
  spread over the 128 features, here after, and the two agree entry by entry.
-/
import proofs.«127377_j82540681494813_1_alg».proof.Proof.Gen.KernelIdeal.Frame
import proofs.«127377_j82540681494813_1_alg».proof.Proof.Gen.ReferenceIdeal.Read
import Idealize.ShloMosaic.Lib.Pipeline.Value
import Idealize.ShloMosaic.Lib.ValueIdx

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.ReferenceIdeal.Read (val_main_v4 val_main_v16 val_main_v44 val_main_v45 val_main_v46 val_main_v47 val_main_v48
  val_main_v49 val_main_v50 val_main_v51 val_main_v52 val_main_v53 val_main_call0_v0 val_main_call0_cst
  val_main_v45_apply val_main_v46_apply val_main_v47_apply val_main_v48_apply val_main_v49_apply val_main_v50_apply
  val_main_v51_apply val_main_v52_apply val_main_v53_apply val_main_call0_v0_apply val_main_call0_cst_apply
  idx_main_v46 idx_main_v47 idx_main_v50 idx_main_v51 idx_main_call0_v0)

variable (V : (c : Dev nD) → (b : Ref sig .tc) → Buf (Elt Ideal) ((c : Thread nD τ).loc b))

theorem origin1 : (![0, 0] : Fin 2 → Nat) = fun _ => 0 := funext fun a => by fin_cases a <;> rfl

/-- One entry of the body's result from the entries of its four loaded blocks: row `p`, feature `q`. -/
theorem combine1_entry (d : FVec Ideal S2000x1 .f32) (h agg : FVec Ideal S2000x128 .f32) (b : FVec Ideal S1x128 .f32)
    (p : Fin 2000) (q : Fin 128) :
    k1_pay1 d h agg b (ix2 p q)
      = FloatOps.maximumf (FloatOps.addf (FloatOps.addf (agg (ix2 p q)) (FloatOps.mulf (h (ix2 p q))
          (FloatOps.mulf (d (ix2 p (0 : Fin 1))) (d (ix2 p (0 : Fin 1)))))) (b (ix2 (0 : Fin 1) q)))
          (FloatOps.ofBits .f32 0x00000000#32) := by
  unfold k1_pay1
  simp only [shapeCast_self]
  show FloatOps.maximumf (FloatOps.addf (FloatOps.addf (agg (ix2 p q)) (FloatOps.mulf (h (ix2 p q))
      (broadcastTo S2000x128 (mulf d d) broadcasts_S2000x1_S2000x128 (ix2 p q))))
      (broadcastTo S2000x128 b broadcasts_S1x128_S2000x128 (ix2 p q))) (FloatOps.ofBits .f32 0x00000000#32) = _
  rw [broadcastTo_apply (mulf d d) broadcasts_S2000x1_S2000x128 (ix2 p q) (ix2 p (0 : Fin 1)) (fun a => match a with
      | ⟨0, _⟩ => by show p.val = if (2000 : Nat) = 1 then 0 else p.val; rw [if_neg (by decide)]
      | ⟨1, _⟩ => by show 0 = if (1 : Nat) = 1 then 0 else q.val; rw [if_pos rfl]),
    broadcastTo_apply b broadcasts_S1x128_S2000x128 (ix2 p q) (ix2 (0 : Fin 1) q) (fun a => match a with
      | ⟨0, _⟩ => by show 0 = if (1 : Nat) = 1 then 0 else p.val; rw [if_pos rfl]
      | ⟨1, _⟩ => by show q.val = if (128 : Nat) = 1 then 0 else q.val; rw [if_neg (by decide)])]
  rfl

/-- The printed index maps over the grid: every row window sits at block `t`, the bias row at block 0. -/
theorem blocks1 : ∀ t : Fin cfg1.N, win1_0.index t (0 : Fin 2) = win1_4.index t (0 : Fin 2)
    ∧ win1_0.index t (1 : Fin 2) = win1_4.index t (1 : Fin 2)
    ∧ win1_1.index t (0 : Fin 2) = win1_4.index t (0 : Fin 2)
    ∧ win1_1.index t (1 : Fin 2) = win1_4.index t (1 : Fin 2)
    ∧ win1_2.index t (0 : Fin 2) = win1_4.index t (0 : Fin 2)
    ∧ win1_2.index t (1 : Fin 2) = 0
    ∧ win1_3.index t (0 : Fin 2) = 0
    ∧ win1_3.index t (1 : Fin 2) = 0
    ∧ win1_4.index t (1 : Fin 2) = 0
    ∧ win1_4.index t (0 : Fin 2) ≤ 24 :=
  (by decide +kernel : ∀ t : Fin grid1.N, _)

/-- Every block of rows is some point's. -/
theorem blocks1_onto : ∀ r : Fin 25, ∃ t : Fin cfg1.N, win1_4.index t = ![r.val, 0] :=
  (by decide +kernel : ∀ r : Fin 25, ∃ t : Fin grid1.N, win1_4.index t = ![r.val, 0])

section
variable (c : Dev nD)
  (x0 : (⟨Cert.ReferenceIdeal.S50000x128, .f32⟩ : BufTy).Contents (Elt Ideal))
  (x1 : (⟨Cert.ReferenceIdeal.S2x1600000, .i32⟩ : BufTy).Contents (Elt Ideal))
  (x2 : (⟨Cert.ReferenceIdeal.S128x128, .f32⟩ : BufTy).Contents (Elt Ideal))
  (x3 : (⟨Cert.ReferenceIdeal.S128, .f32⟩ : BufTy).Contents (Elt Ideal))
  (hagg : V c main_v45 = val_main_v44 x0 x1 x2) (hh : V c main_v32 = val_main_v4 x0 x2)
  (hd : V c main_v31 = broadcastInDim S50000x1 ![0] bcast_S50000_S50000x1_0 (val_main_v16 x1))
  (hb : V c main_v46 = val_main_v50 x3)

include hagg hh hd hb in
/-- What point `t` writes back is block `t` of the reference's first layer. -/
theorem combine1_block (t : Fin cfg1.N) :
    (dat1 V c).flushed 4 t = ((cfg1.win 4).blk t).view.read (Elt Ideal) (val_main_v53 x0 x1 x2 x3) := by
  show (cfg1.win 4).cut (grid1.coords t) ((dat1 V c).after 4 t) = _
  rw [after1_4]
  unfold out1_4
  rw [View.canon_unit_zero origin1]
  simp only [View.ld_unit_zero (S := S2000x128) origin1, View.ld_unit_zero (S := S2000x1) origin1,
    View.ld_unit_zero (S := S1x128) origin1]
  obtain ⟨e0, e1, e2, e3, e4, e5, e6, e7, e8, e9⟩ := blocks1 t
  funext j
  rw [View.read_apply, cast_eq]
  obtain ⟨p, q, rfl⟩ : ∃ (p : Fin 2000) (q : Fin 128), j = ix2 p q := ⟨j 0, j 1, eq_ix2 j⟩
  have hp : p.val < 2000 := p.isLt
  have hq : q.val < 128 := q.isLt
  show k1_pay1 (iblk1 V c 2 t) (iblk1 V c 1 t) (iblk1 V c 0 t) (iblk1 V c 3 t) (ix2 p q)
    = val_main_v53 x0 x1 x2 x3 (((cfg1.win 4).blk t).view.emb (ix2 p q))
  refine (combine1_entry (iblk1 V c 2 t) (iblk1 V c 1 t) (iblk1 V c 0 t) (iblk1 V c 3 t) p q).trans ?_
  rw [val_main_v53_apply, val_main_v52_apply, val_main_v49_apply, val_main_v48_apply, val_main_v47_apply,
    val_main_v46_apply, val_main_v45_apply, val_main_v51_apply, val_main_v50_apply, val_main_call0_v0_apply,
    val_main_call0_cst_apply]
  have A : iblk1 V c 0 t (ix2 p q) = val_main_v44 x0 x1 x2 (((cfg1.win 4).blk t).view.emb (ix2 p q)) := by
    unfold iblk1
    rw [View.read_apply, cast_eq]
    show V c main_v45 (((cfg1.win 0).blk t).view.emb (ix2 p q)) = _
    rw [hagg]
    refine congrArg (val_main_v44 x0 x1 x2) (funext fun a => Fin.ext ?_)
    match a with
    | ⟨0, _⟩ => show win1_0.index t (0 : Fin 2) * 2000 + 1 * p.val = win1_4.index t (0 : Fin 2) * 2000 + 1 * p.val; omega
    | ⟨1, _⟩ => show win1_0.index t (1 : Fin 2) * 128 + 1 * q.val = win1_4.index t (1 : Fin 2) * 128 + 1 * q.val; omega
  have H : iblk1 V c 1 t (ix2 p q) = val_main_v4 x0 x2 (((cfg1.win 4).blk t).view.emb (ix2 p q)) := by
    unfold iblk1
    rw [View.read_apply, cast_eq]
    show V c main_v32 (((cfg1.win 1).blk t).view.emb (ix2 p q)) = _
    rw [hh]
    refine congrArg (val_main_v4 x0 x2) (funext fun a => Fin.ext ?_)
    match a with
    | ⟨0, _⟩ => show win1_1.index t (0 : Fin 2) * 2000 + 1 * p.val = win1_4.index t (0 : Fin 2) * 2000 + 1 * p.val; omega
    | ⟨1, _⟩ => show win1_1.index t (1 : Fin 2) * 128 + 1 * q.val = win1_4.index t (1 : Fin 2) * 128 + 1 * q.val; omega
  have D : iblk1 V c 2 t (ix2 p (0 : Fin 1))
      = val_main_v16 x1 (idx_main_v46 (idx_main_v47 (((cfg1.win 4).blk t).view.emb (ix2 p q)))) := by
    unfold iblk1
    rw [View.read_apply, cast_eq]
    show V c main_v31 (((cfg1.win 2).blk t).view.emb (ix2 p (0 : Fin 1))) = _
    rw [hd]
    refine broadcastInDim_apply _ bcast_S50000_S50000x1_0 (val_main_v16 x1) _ _ (fun a => ?_)
    match a with
    | ⟨0, _⟩ =>
      show win1_4.index t (0 : Fin 2) * 2000 + 1 * p.val
        = if (50000 : Nat) = 1 then 0 else win1_2.index t (0 : Fin 2) * 2000 + 1 * p.val
      rw [if_neg (by decide)]; omega
  have B : iblk1 V c 3 t (ix2 (0 : Fin 1) q)
      = x3 (idx_main_v50 (idx_main_v51 (((cfg1.win 4).blk t).view.emb (ix2 p q)))) := by
    unfold iblk1
    rw [View.read_apply, cast_eq]
    show V c main_v46 (((cfg1.win 3).blk t).view.emb (ix2 (0 : Fin 1) q)) = _
    rw [hb, val_main_v50_apply]
    refine congrArg x3 (funext fun a => Fin.ext ?_)
    match a with
    | ⟨0, _⟩ => show win1_3.index t (1 : Fin 2) * 128 + 1 * q.val = win1_4.index t (1 : Fin 2) * 128 + 1 * q.val; omega
  rw [A, H, D, B]

/-- An index of the result array is in point `t`'s block iff each coordinate is in the block's range. -/
theorem combine1_mem (t : Fin cfg1.N) (i : S50000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole main_v47).slice (win1_4.rect t)).set ↔ _
  rw [View.set_slice_whole, Rect.mem_set_unit]
  exact Iff.rfl

/-- The 25 row blocks cover the array: row `r` is in block `r / 2000`. -/
theorem combine1_cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := blocks1_onto ⟨(i 0).val / 2000, by omega⟩
  have q0 : win1_4.index t (0 : Fin 2) = (i 0).val / 2000 := congrFun ht 0
  have q1 : win1_4.index t (1 : Fin 2) = 0 := congrFun ht 1
  refine ⟨t, flush1_4 t, ?_⟩
  rw [combine1_mem]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 128 ≤ (i 1).val ∧ (i 1).val < win1_4.index t (1 : Fin 2) * 128 + 128; omega

include hagg hh hd hb in
/-- The region's result array, after the run of its 25 points, is the reference's first layer. -/
theorem combine1_array : (dat1 V c).arrAt 4 cfg1.N = val_main_v53 x0 x1 x2 x3 :=
  (dat1 V c).arrAt_eq_of_cover 4 (val_main_v53 x0 x1 x2 x3)
    (fun t _ => combine1_block V c x0 x1 x2 x3 hagg hh hd hb t) (combine1_cover)

/-- The column of inverse square roots is an input of the region: its array is as entered. -/
theorem combine1_keeps_column : (dat1 V c).arrAt 2 cfg1.N = V c main_v31 :=
  ((dat1 V c).arrAt_in 2 rfl _).trans (A_eq1 V c 2)

end

end Cert.KernelIdeal.Whole

end
-- ==== Proof.Project2.lean ====
/-
  The second projection region, (first layer's output) · W2, as one whole-array function.
  At grid point `t` the body loads rows `2000·t … 2000·t + 1999` of the left array and the whole right
  array, and writes their product — into a zero accumulator, so entry (p, q) of the block is the plain sum
  `∑ k, left (p, k) · right (k, q)` over the 128 contracted positions (the change of float format before
  the product is the identity on the extended reals).  The 25 blocks tile the 50000 rows, and a row of the
  product depends on that row of the left array only, so the result array ends as the whole product: the
  reference's `dot_general` of the same two arrays, the same sum at every index.
-/
import proofs.«127377_j82540681494813_1_alg».proof.Proof.Gen.KernelIdeal.Frame
import proofs.«127377_j82540681494813_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.ReferenceIdeal.Read (val_main_v53 val_main_v54 val_main_v54_apply lidx_main_v54 ridx_main_v54)

variable (V : (c : Dev nD) → (b : Ref sig .tc) → Buf (Elt Ideal) ((c : Thread nD τ).loc b))

theorem origin2 : (![0, 0] : Fin 2 → Nat) = fun _ => 0 := funext fun a => by fin_cases a <;> rfl

theorem project2_lhs0 (i : S2000x64.Idx) (k : dot_S2000x128_S128x64_S2000x64_1_0_0_1_n_n.contr.Idx) : (dot_S2000x128_S128x64_S2000x64_1_0_0_1_n_n.lhsIdx i k 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem project2_rhs1 (i : S2000x64.Idx) (k : dot_S2000x128_S128x64_S2000x64_1_0_0_1_n_n.contr.Idx) : (dot_S2000x128_S128x64_S2000x64_1_0_0_1_n_n.rhsIdx i k 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- One entry of the body's product block: row `p` of the loaded rows against column `q` of the right array. -/
theorem project2_entry (x : FVec Ideal S2000x128 .f32) (w : FVec Ideal S128x64 .f32) (p : Fin 2000) (q : Fin 64) :
    k2_pay1 x w (ix2 p q) = ∑ k : Fin 128, x (ix2 p k) * w (ix2 k q) := by
  unfold k2_pay1
  simp only [shapeCast_self]
  show FloatOps.matmul dot_S2000x128_S128x64_S2000x64_1_0_0_1_n_n none (truncf .bf16 x bitsLt_bf16_f32) (truncf .bf16 w bitsLt_bf16_f32)
    (constant S2000x64 .f32 0x00000000#32) (ix2 p q) = _
  refine (Ideal.matmul_constant_zero_apply dot_S2000x128_S128x64_S2000x64_1_0_0_1_n_n none _ _ (ix2 p q)).trans ?_
  rw [← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q) ((contrEquiv1 dot_S2000x128_S128x64_S2000x64_1_0_0_1_n_n 128 rfl rfl).symm k) = ix2 p k :=
    funext fun a => Fin.ext (by
      match a with
      | ⟨0, _⟩ => exact project2_lhs0 _ _
      | ⟨1, _⟩ => exact (dot_S2000x128_S128x64_S2000x64_1_0_0_1_n_n.lhsIdx_val_of_single rfl _ _).trans hk)
  have er : dot_S2000x128_S128x64_S2000x64_1_0_0_1_n_n.rhsIdx (ix2 p q) ((contrEquiv1 dot_S2000x128_S128x64_S2000x64_1_0_0_1_n_n 128 rfl rfl).symm k) = ix2 k q :=
    funext fun a => Fin.ext (by
      match a with
      | ⟨0, _⟩ => exact (dot_S2000x128_S128x64_S2000x64_1_0_0_1_n_n.rhsIdx_val_of_single rfl _ _).trans hk
      | ⟨1, _⟩ => exact project2_rhs1 _ _)
  rw [el, er]
  rfl

/-- The printed index maps over the grid: the row windows sit at block `t`, the right array at block 0. -/
theorem blocks2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 24 :=
  (by decide +kernel : ∀ t : Fin grid2.N, _)

/-- Every block of rows is some point's. -/
theorem blocks2_onto : ∀ r : Fin 25, ∃ t : Fin cfg2.N, win2_2.index t = ![r.val, 0] :=
  (by decide +kernel : ∀ r : Fin 25, ∃ t : Fin grid2.N, win2_2.index t = ![r.val, 0])

section
variable (c : Dev nD)
  (x0 : (⟨Cert.ReferenceIdeal.S50000x128, .f32⟩ : BufTy).Contents (Elt Ideal))
  (x1 : (⟨Cert.ReferenceIdeal.S2x1600000, .i32⟩ : BufTy).Contents (Elt Ideal))
  (x2 : (⟨Cert.ReferenceIdeal.S128x128, .f32⟩ : BufTy).Contents (Elt Ideal))
  (x3 : (⟨Cert.ReferenceIdeal.S128, .f32⟩ : BufTy).Contents (Elt Ideal))
  (hin : V c main_v47 = val_main_v53 x0 x1 x2 x3)

include hin in
/-- What point `t` writes back is block `t` of the whole product. -/
theorem project2_block (t : Fin cfg2.N) :
    (dat2 V c).flushed 2 t = ((cfg2.win 2).blk t).view.read (Elt Ideal) (val_main_v54 x0 x1 x2 x3 (V c main_arg4)) := by
  show (cfg2.win 2).cut (grid2.coords t) ((dat2 V c).after 2 t) = _
  rw [after2_2]
  unfold out2_2
  rw [View.canon_unit_zero origin2]
  simp only [View.ld_unit_zero (S := S2000x128) origin2, View.ld_unit_zero (S := S128x64) origin2]
  obtain ⟨e0, e1, e2, e3, e4, e5⟩ := blocks2 t
  funext j
  rw [View.read_apply, cast_eq]
  obtain ⟨p, q, rfl⟩ : ∃ (p : Fin 2000) (q : Fin 64), j = ix2 p q := ⟨j 0, j 1, eq_ix2 j⟩
  have hp : p.val < 2000 := p.isLt
  have hq : q.val < 64 := q.isLt
  show k2_pay1 (iblk2 V c 0 t) (iblk2 V c 1 t) (ix2 p q)
    = (val_main_v54 x0 x1 x2 x3 (V c main_arg4)) (((cfg2.win 2).blk t).view.emb (ix2 p q))
  refine (project2_entry (iblk2 V c 0 t) (iblk2 V c 1 t) p q).trans ?_
  rw [val_main_v54_apply]
  refine Finset.sum_congr rfl fun k _ => ?_
  have hk : k.val < 128 := k.isLt
  have L : iblk2 V c 0 t (ix2 p k)
      = (val_main_v53 x0 x1 x2 x3) (lidx_main_v54 (((cfg2.win 2).blk t).view.emb (ix2 p q)) k) := by
    unfold iblk2
    rw [View.read_apply, cast_eq]
    show V c main_v47 (((cfg2.win 0).blk t).view.emb (ix2 p k)) = _
    rw [hin]
    refine congrArg (val_main_v53 x0 x1 x2 x3) (funext fun a => Fin.ext ?_)
    match a with
    | ⟨0, _⟩ => show win2_0.index t (0 : Fin 2) * 2000 + 1 * p.val = win2_2.index t (0 : Fin 2) * 2000 + 1 * p.val; omega
    | ⟨1, _⟩ => show win2_0.index t (1 : Fin 2) * 128 + 1 * k.val = k.val; omega
  have Rr : iblk2 V c 1 t (ix2 k q)
      = V c main_arg4 (ridx_main_v54 (((cfg2.win 2).blk t).view.emb (ix2 p q)) k) := by
    unfold iblk2
    rw [View.read_apply, cast_eq]
    show V c main_arg4 (((cfg2.win 1).blk t).view.emb (ix2 k q)) = _
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 64 + 1 * q.val = win2_2.index t (1 : Fin 2) * 64 + 1 * q.val; omega
  rw [L, Rr]

/-- An index of the product array is in point `t`'s block iff each coordinate is in the block's range. -/
theorem project2_mem (t : Fin cfg2.N) (i : S50000x64.Idx) :
    i ∈ ((cfg2.win 2).blk t).view.set ↔ ∀ a : Fin 2, win2_2.index t a * S2000x64.size a ≤ (i a).val
      ∧ (i a).val < win2_2.index t a * S2000x64.size a + S2000x64.size a := by
  show i ∈ ((View.whole main_v48).slice (win2_2.rect t)).set ↔ _
  rw [View.set_slice_whole, Rect.mem_set_unit]
  exact Iff.rfl

/-- The 25 row blocks cover the array: row `r` is in block `r / 2000`. -/
theorem project2_cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := blocks2_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [project2_mem]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 64 ≤ (i 1).val ∧ (i 1).val < win2_2.index t (1 : Fin 2) * 64 + 64; omega

include hin in
/-- The region's result array, after the run of its 25 points, is the whole product. -/
theorem project2_array : (dat2 V c).arrAt 2 cfg2.N = val_main_v54 x0 x1 x2 x3 (V c main_arg4) :=
  (dat2 V c).arrAt_eq_of_cover 2 (val_main_v54 x0 x1 x2 x3 (V c main_arg4))
    (fun t _ => project2_block V c x0 x1 x2 x3 hin t) (project2_cover)

end

end Cert.KernelIdeal.Whole

end
-- ==== Proof.Combine2.lean ====
/-
  The second combine region as one whole-array function.  At grid point `t` the body reads rows
  `2000·t … 2000·t + 1999` of the second aggregate `agg` and of the second projection `h`, the same rows of
  the column `d` of inverse square roots of the degrees and the whole bias row `b`, and writes
  `agg + h · (d · d) + b` to the same rows of the result (no `max` in the last layer).  The 25 blocks tile the
  50000 rows, so the result array ends as that function of the four arrays at every index: the reference's
  output, entry by entry (it squares `d` before spreading it over the 64 features, the body after).
-/
import proofs.«127377_j82540681494813_1_alg».proof.Proof.Gen.KernelIdeal.Frame
import proofs.«127377_j82540681494813_1_alg».proof.Proof.Gen.ReferenceIdeal.Read
import Idealize.ShloMosaic.Lib.Pipeline.Value
import Idealize.ShloMosaic.Lib.ValueIdx

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.ReferenceIdeal.Read (val_main_v54 val_main_v66 val_main_v94 val_main_v95 val_main_v96 val_main_v97 val_main_v98
  val_main_v99 val_main_v100 val_main_v101 val_main_v102
  val_main_v95_apply val_main_v96_apply val_main_v97_apply val_main_v98_apply val_main_v99_apply val_main_v100_apply
  val_main_v101_apply val_main_v102_apply
  idx_main_v96 idx_main_v97 idx_main_v100 idx_main_v101)

variable (V : (c : Dev nD) → (b : Ref sig .tc) → Buf (Elt Ideal) ((c : Thread nD τ).loc b))

theorem origin3 : (![0, 0] : Fin 2 → Nat) = fun _ => 0 := funext fun a => by fin_cases a <;> rfl

/-- One entry of the body's result from the entries of its four loaded blocks: row `p`, feature `q`. -/
theorem combine2_entry (d : FVec Ideal S2000x1 .f32) (h agg : FVec Ideal S2000x64 .f32) (b : FVec Ideal S1x64 .f32)
    (p : Fin 2000) (q : Fin 64) :
    k3_pay1 d h agg b (ix2 p q)
      = FloatOps.addf (FloatOps.addf (agg (ix2 p q)) (FloatOps.mulf (h (ix2 p q))
          (FloatOps.mulf (d (ix2 p (0 : Fin 1))) (d (ix2 p (0 : Fin 1)))))) (b (ix2 (0 : Fin 1) q)) := by
  unfold k3_pay1
  simp only [shapeCast_self]
  show FloatOps.addf (FloatOps.addf (agg (ix2 p q)) (FloatOps.mulf (h (ix2 p q))
      (broadcastTo S2000x64 (mulf d d) broadcasts_S2000x1_S2000x64 (ix2 p q))))
      (broadcastTo S2000x64 b broadcasts_S1x64_S2000x64 (ix2 p q)) = _
  rw [broadcastTo_apply (mulf d d) broadcasts_S2000x1_S2000x64 (ix2 p q) (ix2 p (0 : Fin 1)) (fun a => match a with
      | ⟨0, _⟩ => by show p.val = if (2000 : Nat) = 1 then 0 else p.val; rw [if_neg (by decide)]
      | ⟨1, _⟩ => by show 0 = if (1 : Nat) = 1 then 0 else q.val; rw [if_pos rfl]),
    broadcastTo_apply b broadcasts_S1x64_S2000x64 (ix2 p q) (ix2 (0 : Fin 1) q) (fun a => match a with
      | ⟨0, _⟩ => by show 0 = if (1 : Nat) = 1 then 0 else p.val; rw [if_pos rfl]
      | ⟨1, _⟩ => by show q.val = if (64 : Nat) = 1 then 0 else q.val; rw [if_neg (by decide)])]
  rfl

/-- The printed index maps over the grid: every row window sits at block `t`, the bias row at block 0. -/
theorem blocks3 : ∀ t : Fin cfg3.N, win3_0.index t (0 : Fin 2) = win3_4.index t (0 : Fin 2)
    ∧ win3_0.index t (1 : Fin 2) = win3_4.index t (1 : Fin 2)
    ∧ win3_1.index t (0 : Fin 2) = win3_4.index t (0 : Fin 2)
    ∧ win3_1.index t (1 : Fin 2) = win3_4.index t (1 : Fin 2)
    ∧ win3_2.index t (0 : Fin 2) = win3_4.index t (0 : Fin 2)
    ∧ win3_2.index t (1 : Fin 2) = 0
    ∧ win3_3.index t (0 : Fin 2) = 0
    ∧ win3_3.index t (1 : Fin 2) = 0
    ∧ win3_4.index t (1 : Fin 2) = 0
    ∧ win3_4.index t (0 : Fin 2) ≤ 24 :=
  (by decide +kernel : ∀ t : Fin grid3.N, _)

/-- Every block of rows is some point's. -/
theorem blocks3_onto : ∀ r : Fin 25, ∃ t : Fin cfg3.N, win3_4.index t = ![r.val, 0] :=
  (by decide +kernel : ∀ r : Fin 25, ∃ t : Fin grid3.N, win3_4.index t = ![r.val, 0])

section
variable (c : Dev nD)
  (x0 : (⟨Cert.ReferenceIdeal.S50000x128, .f32⟩ : BufTy).Contents (Elt Ideal))
  (x1 : (⟨Cert.ReferenceIdeal.S2x1600000, .i32⟩ : BufTy).Contents (Elt Ideal))
  (x2 : (⟨Cert.ReferenceIdeal.S128x128, .f32⟩ : BufTy).Contents (Elt Ideal))
  (x3 : (⟨Cert.ReferenceIdeal.S128, .f32⟩ : BufTy).Contents (Elt Ideal))
  (x4 : (⟨Cert.ReferenceIdeal.S128x64, .f32⟩ : BufTy).Contents (Elt Ideal))
  (x5 : (⟨Cert.ReferenceIdeal.S64, .f32⟩ : BufTy).Contents (Elt Ideal))
  (hagg : V c main_v61 = val_main_v94 x0 x1 x2 x3 x4) (hh : V c main_v48 = val_main_v54 x0 x1 x2 x3 x4)
  (hd : V c main_v31 = broadcastInDim S50000x1 ![0] bcast_S50000_S50000x1_0 (val_main_v66 x1))
  (hb : V c main_v62 = val_main_v100 x5)

include hagg hh hd hb in
/-- What point `t` writes back is block `t` of the reference's output. -/
theorem combine2_block (t : Fin cfg3.N) :
    (dat3 V c).flushed 4 t = ((cfg3.win 4).blk t).view.read (Elt Ideal) (val_main_v102 x0 x1 x2 x3 x4 x5) := by
  show (cfg3.win 4).cut (grid3.coords t) ((dat3 V c).after 4 t) = _
  rw [after3_4]
  unfold out3_4
  rw [View.canon_unit_zero origin3]
  simp only [View.ld_unit_zero (S := S2000x64) origin3, View.ld_unit_zero (S := S2000x1) origin3,
    View.ld_unit_zero (S := S1x64) origin3]
  obtain ⟨e0, e1, e2, e3, e4, e5, e6, e7, e8, e9⟩ := blocks3 t
  funext j
  rw [View.read_apply, cast_eq]
  obtain ⟨p, q, rfl⟩ : ∃ (p : Fin 2000) (q : Fin 64), j = ix2 p q := ⟨j 0, j 1, eq_ix2 j⟩
  have hp : p.val < 2000 := p.isLt
  have hq : q.val < 64 := q.isLt
  show k3_pay1 (iblk3 V c 2 t) (iblk3 V c 1 t) (iblk3 V c 0 t) (iblk3 V c 3 t) (ix2 p q)
    = val_main_v102 x0 x1 x2 x3 x4 x5 (((cfg3.win 4).blk t).view.emb (ix2 p q))
  refine (combine2_entry (iblk3 V c 2 t) (iblk3 V c 1 t) (iblk3 V c 0 t) (iblk3 V c 3 t) p q).trans ?_
  rw [val_main_v102_apply, val_main_v99_apply, val_main_v98_apply, val_main_v97_apply, val_main_v96_apply,
    val_main_v95_apply, val_main_v101_apply, val_main_v100_apply]
  have A : iblk3 V c 0 t (ix2 p q) = val_main_v94 x0 x1 x2 x3 x4 (((cfg3.win 4).blk t).view.emb (ix2 p q)) := by
    unfold iblk3
    rw [View.read_apply, cast_eq]
    show V c main_v61 (((cfg3.win 0).blk t).view.emb (ix2 p q)) = _
    rw [hagg]
    refine congrArg (val_main_v94 x0 x1 x2 x3 x4) (funext fun a => Fin.ext ?_)
    match a with
    | ⟨0, _⟩ => show win3_0.index t (0 : Fin 2) * 2000 + 1 * p.val = win3_4.index t (0 : Fin 2) * 2000 + 1 * p.val; omega
    | ⟨1, _⟩ => show win3_0.index t (1 : Fin 2) * 64 + 1 * q.val = win3_4.index t (1 : Fin 2) * 64 + 1 * q.val; omega
  have H : iblk3 V c 1 t (ix2 p q) = val_main_v54 x0 x1 x2 x3 x4 (((cfg3.win 4).blk t).view.emb (ix2 p q)) := by
    unfold iblk3
    rw [View.read_apply, cast_eq]
    show V c main_v48 (((cfg3.win 1).blk t).view.emb (ix2 p q)) = _
    rw [hh]
    refine congrArg (val_main_v54 x0 x1 x2 x3 x4) (funext fun a => Fin.ext ?_)
    match a with
    | ⟨0, _⟩ => show win3_1.index t (0 : Fin 2) * 2000 + 1 * p.val = win3_4.index t (0 : Fin 2) * 2000 + 1 * p.val; omega
    | ⟨1, _⟩ => show win3_1.index t (1 : Fin 2) * 64 + 1 * q.val = win3_4.index t (1 : Fin 2) * 64 + 1 * q.val; omega
  have D : iblk3 V c 2 t (ix2 p (0 : Fin 1))
      = val_main_v66 x1 (idx_main_v96 (idx_main_v97 (((cfg3.win 4).blk t).view.emb (ix2 p q)))) := by
    unfold iblk3
    rw [View.read_apply, cast_eq]
    show V c main_v31 (((cfg3.win 2).blk t).view.emb (ix2 p (0 : Fin 1))) = _
    rw [hd]
    refine broadcastInDim_apply _ bcast_S50000_S50000x1_0 (val_main_v66 x1) _ _ (fun a => ?_)
    match a with
    | ⟨0, _⟩ =>
      show win3_4.index t (0 : Fin 2) * 2000 + 1 * p.val
        = if (50000 : Nat) = 1 then 0 else win3_2.index t (0 : Fin 2) * 2000 + 1 * p.val
      rw [if_neg (by decide)]; omega
  have B : iblk3 V c 3 t (ix2 (0 : Fin 1) q)
      = x5 (idx_main_v100 (idx_main_v101 (((cfg3.win 4).blk t).view.emb (ix2 p q)))) := by
    unfold iblk3
    rw [View.read_apply, cast_eq]
    show V c main_v62 (((cfg3.win 3).blk t).view.emb (ix2 (0 : Fin 1) q)) = _
    rw [hb, val_main_v100_apply]
    refine congrArg x5 (funext fun a => Fin.ext ?_)
    match a with
    | ⟨0, _⟩ => show win3_3.index t (1 : Fin 2) * 64 + 1 * q.val = win3_4.index t (1 : Fin 2) * 64 + 1 * q.val; omega
  rw [A, H, D, B]

/-- An index of the result array is in point `t`'s block iff each coordinate is in the block's range. -/
theorem combine2_mem (t : Fin cfg3.N) (i : S50000x64.Idx) :
    i ∈ ((cfg3.win 4).blk t).view.set ↔ ∀ a : Fin 2, win3_4.index t a * S2000x64.size a ≤ (i a).val
      ∧ (i a).val < win3_4.index t a * S2000x64.size a + S2000x64.size a := by
  show i ∈ ((View.whole main_v63).slice (win3_4.rect t)).set ↔ _
  rw [View.set_slice_whole, Rect.mem_set_unit]
  exact Iff.rfl

/-- The 25 row blocks cover the array: row `r` is in block `r / 2000`. -/
theorem combine2_cover (i : S50000x64.Idx) :
    ∃ t : Fin cfg3.N, (cfg3.win 4).flush t = true ∧ i ∈ ((cfg3.win 4).blk t).view.set := by
  have hi0 : (i 0).val < 50000 := (i 0).isLt
  have hi1 : (i 1).val < 64 := (i 1).isLt
  obtain ⟨t, ht⟩ := blocks3_onto ⟨(i 0).val / 2000, by omega⟩
  have q0 : win3_4.index t (0 : Fin 2) = (i 0).val / 2000 := congrFun ht 0
  have q1 : win3_4.index t (1 : Fin 2) = 0 := congrFun ht 1
  refine ⟨t, flush3_4 t, ?_⟩
  rw [combine2_mem]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 64 ≤ (i 1).val ∧ (i 1).val < win3_4.index t (1 : Fin 2) * 64 + 64; omega

include hagg hh hd hb in
/-- The region's result array, after the run of its 25 points, is the reference's output. -/
theorem combine2_array : (dat3 V c).arrAt 4 cfg3.N = val_main_v102 x0 x1 x2 x3 x4 x5 :=
  (dat3 V c).arrAt_eq_of_cover 4 (val_main_v102 x0 x1 x2 x3 x4 x5)
    (fun t _ => combine2_block V c x0 x1 x2 x3 x4 x5 hagg hh hd hb t) (combine2_cover)

end

end Cert.KernelIdeal.Whole

end
-- ==== Proof.Chain.lean ====
/-
  The contents of the idealized kernel's buffers at each of the seven segment boundaries of @main, read at the
  buffers that later segments use.  The first stretch computes, from the edge list alone: the two index
  vectors (sources and destinations), the degrees by a scatter-add of ones, their inverse square roots `d`, the
  edge weights `d[src] · d[dst]`, and `d` as a column.  Each layer is then: a projection (a region), the
  gather of the projected rows at the sources times the edge weights, scatter-added at the destinations (a
  stretch), and the combine with the self term and the bias (a region).  Every one of these is, operation for
  operation, a stage of the reference's own @main — which recomputes `d` and the edge weights in its second
  layer by the same operations of the same edge list — so each buffer's contents is named here by the
  reference's stage, as a function of the six arguments.
-/
import proofs.«127377_j82540681494813_1_alg».proof.Proof.Gen.KernelIdeal.Frame
import proofs.«127377_j82540681494813_1_alg».proof.Proof.Gen.ReferenceIdeal.Read
import proofs.«127377_j82540681494813_1_alg».proof.Proof.Project1
import proofs.«127377_j82540681494813_1_alg».proof.Proof.Combine1
import proofs.«127377_j82540681494813_1_alg».proof.Proof.Project2
import proofs.«127377_j82540681494813_1_alg».proof.Proof.Combine2
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo
open Cert.ReferenceIdeal.Read (val_main_v1 val_main_v3 val_main_v4 val_main_v16 val_main_v31 val_main_v44 val_main_v50
  val_main_v53 val_main_v54 val_main_v66 val_main_v94 val_main_v100 val_main_v102)

variable (m : (ℓ : Loc nD τ sig) → Buf (Elt Ideal) ℓ) (ρ : Dev nD → PrngReg) (c : Dev nD)

/-- The six arguments as launched, read at the reference's shapes. -/
abbrev argX : (⟨Cert.ReferenceIdeal.S50000x128, .f32⟩ : BufTy).Contents (Elt Ideal) := m ((c : Thread nD τ).loc main_arg0)
abbrev argE : (⟨Cert.ReferenceIdeal.S2x1600000, .i32⟩ : BufTy).Contents (Elt Ideal) := m ((c : Thread nD τ).loc main_arg1)
abbrev argW1 : (⟨Cert.ReferenceIdeal.S128x128, .f32⟩ : BufTy).Contents (Elt Ideal) := m ((c : Thread nD τ).loc main_arg2)
abbrev argB1 : (⟨Cert.ReferenceIdeal.S128, .f32⟩ : BufTy).Contents (Elt Ideal) := m ((c : Thread nD τ).loc main_arg3)
abbrev argW2 : (⟨Cert.ReferenceIdeal.S128x64, .f32⟩ : BufTy).Contents (Elt Ideal) := m ((c : Thread nD τ).loc main_arg4)
abbrev argB2 : (⟨Cert.ReferenceIdeal.S64, .f32⟩ : BufTy).Contents (Elt Ideal) := m ((c : Thread nD τ).loc main_arg5)

/-- What the later segments still read of the first stretch's results, and the last bias: the sources, the
    destinations, the edge weights, the column of inverse square roots of the degrees, the second bias. -/
structure Carried (W : Valuation τ sig (Elt Ideal)) : Prop where
  src : W (Proc.devRef .tc main_v1) = val_main_v1 (argE m c)
  dst : W (Proc.devRef .tc main_v3) = val_main_v3 (argE m c)
  norm : W (Proc.devRef .tc main_v30) = val_main_v31 (argE m c)
  col : W (Proc.devRef .tc main_v31) = broadcastInDim S50000x1 ![0] bcast_S50000_S50000x1_0 (val_main_v16 (argE m c))
  b2 : W (Proc.devRef .tc main_arg5) = (argB2 m c)

/-! ## After the first stretch -/

theorem carried1 : Carried m c (W1 m ρ c) where
  src := by
    show StableHlo.after hostOps0 (W0 m ρ c) (Proc.devRef .tc main_v1) = _
    dsimp only [hostOps0]
    after_results_simp
    try rfl
  dst := by
    show StableHlo.after hostOps0 (W0 m ρ c) (Proc.devRef .tc main_v3) = _
    dsimp only [hostOps0]
    after_results_simp
    try rfl
  norm := by
    show StableHlo.after hostOps0 (W0 m ρ c) (Proc.devRef .tc main_v30) = _
    dsimp only [hostOps0]
    after_results_simp
    try rfl
  col := by
    show StableHlo.after hostOps0 (W0 m ρ c) (Proc.devRef .tc main_v31) = _
    dsimp only [hostOps0]
    after_results_simp
    try rfl
  b2 := by
    show StableHlo.after hostOps0 (W0 m ρ c) (Proc.devRef .tc main_arg5) = _
    dsimp only [hostOps0]
    after_results_simp
    try rfl

theorem x_at1 : V1 m ρ c main_arg0 = (argX m c) := by
    show StableHlo.after hostOps0 (W0 m ρ c) (Proc.devRef .tc main_arg0) = _
    dsimp only [hostOps0]
    after_results_simp
    try rfl
theorem w1_at1 : V1 m ρ c main_arg2 = (argW1 m c) := by
    show StableHlo.after hostOps0 (W0 m ρ c) (Proc.devRef .tc main_arg2) = _
    dsimp only [hostOps0]
    after_results_simp
    try rfl
theorem b1_at1 : W1 m ρ c (Proc.devRef .tc main_arg3) = (argB1 m c) := by
    show StableHlo.after hostOps0 (W0 m ρ c) (Proc.devRef .tc main_arg3) = _
    dsimp only [hostOps0]
    after_results_simp
    try rfl
theorem w2_at1 : W1 m ρ c (Proc.devRef .tc main_arg4) = (argW2 m c) := by
    show StableHlo.after hostOps0 (W0 m ρ c) (Proc.devRef .tc main_arg4) = _
    dsimp only [hostOps0]
    after_results_simp
    try rfl

/-! ## After the first projection -/

theorem carried2 : Carried m c (W2 m ρ c) where
  src := (W2_of_ne m ρ c main_v1 (by decide)).trans (carried1 m ρ c).src
  dst := (W2_of_ne m ρ c main_v3 (by decide)).trans (carried1 m ρ c).dst
  norm := (W2_of_ne m ρ c main_v30 (by decide)).trans (carried1 m ρ c).norm
  col := (W2_of_ne m ρ c main_v31 (by decide)).trans (carried1 m ρ c).col
  b2 := (W2_of_ne m ρ c main_arg5 (by decide)).trans (carried1 m ρ c).b2

/-- The first projection's array: x · W1. -/
theorem proj1_at2 : W2 m ρ c (Proc.devRef .tc main_v32) = val_main_v4 (argX m c) (argW1 m c) :=
  (W2_arr m ρ c 2).trans ((project1_array (V1 m ρ) c).trans (congrArg₂ val_main_v4 (x_at1 m ρ c) (w1_at1 m ρ c)))
theorem b1_at2 : W2 m ρ c (Proc.devRef .tc main_arg3) = (argB1 m c) := (W2_of_ne m ρ c main_arg3 (by decide)).trans (b1_at1 m ρ c)
theorem w2_at2 : W2 m ρ c (Proc.devRef .tc main_arg4) = (argW2 m c) := (W2_of_ne m ρ c main_arg4 (by decide)).trans (w2_at1 m ρ c)

/-! ## After the second stretch -/

theorem carried3 : Carried m c (W3 m ρ c) where
  src := by
    show StableHlo.after hostOps1 (W2 m ρ c) (Proc.devRef .tc main_v1) = _
    dsimp only [hostOps1]
    after_results_simp
    exact (carried2 m ρ c).src
  dst := by
    show StableHlo.after hostOps1 (W2 m ρ c) (Proc.devRef .tc main_v3) = _
    dsimp only [hostOps1]
    after_results_simp
    exact (carried2 m ρ c).dst
  norm := by
    show StableHlo.after hostOps1 (W2 m ρ c) (Proc.devRef .tc main_v30) = _
    dsimp only [hostOps1]
    after_results_simp
    exact (carried2 m ρ c).norm
  col := by
    show StableHlo.after hostOps1 (W2 m ρ c) (Proc.devRef .tc main_v31) = _
    dsimp only [hostOps1]
    after_results_simp
    exact (carried2 m ρ c).col
  b2 := by
    show StableHlo.after hostOps1 (W2 m ρ c) (Proc.devRef .tc main_arg5) = _
    dsimp only [hostOps1]
    after_results_simp
    exact (carried2 m ρ c).b2

theorem proj1_at3 : V3 m ρ c main_v32 = val_main_v4 (argX m c) (argW1 m c) := by
    show StableHlo.after hostOps1 (W2 m ρ c) (Proc.devRef .tc main_v32) = _
    dsimp only [hostOps1]
    after_results_simp
    exact proj1_at2 m ρ c
theorem w2_at3 : W3 m ρ c (Proc.devRef .tc main_arg4) = (argW2 m c) := by
    show StableHlo.after hostOps1 (W2 m ρ c) (Proc.devRef .tc main_arg4) = _
    dsimp only [hostOps1]
    after_results_simp
    exact w2_at2 m ρ c
/-- The first bias as a row. -/
theorem bias1_at3 : V3 m ρ c main_v46 = val_main_v50 (argB1 m c) := by
    show StableHlo.after hostOps1 (W2 m ρ c) (Proc.devRef .tc main_v46) = _
    dsimp only [hostOps1]
    after_results_simp
    rw [b1_at2 m ρ c]
    rfl
/-- The first aggregate: the projected rows gathered at the sources, times the edge weights, summed at the destinations. -/
theorem agg1_at3 : V3 m ρ c main_v45 = val_main_v44 (argX m c) (argE m c) (argW1 m c) := by
    show StableHlo.after hostOps1 (W2 m ρ c) (Proc.devRef .tc main_v45) = _
    dsimp only [hostOps1]
    after_results_simp
    rw [proj1_at2 m ρ c, (carried2 m ρ c).src, (carried2 m ρ c).dst, (carried2 m ρ c).norm]
    rfl

/-! ## After the first combine -/

/-- The first layer's output. -/
theorem out1_at4 : V4 m ρ c main_v47 = val_main_v53 (argX m c) (argE m c) (argW1 m c) (argB1 m c) :=
  (W4_arr m ρ c 4).trans (combine1_array (V3 m ρ) c (argX m c) (argE m c) (argW1 m c) (argB1 m c) (agg1_at3 m ρ c) (proj1_at3 m ρ c) (carried3 m ρ c).col (bias1_at3 m ρ c))
theorem carried4 : Carried m c (W4 m ρ c) where
  src := (W4_of_ne m ρ c main_v1 (by decide)).trans (carried3 m ρ c).src
  dst := (W4_of_ne m ρ c main_v3 (by decide)).trans (carried3 m ρ c).dst
  norm := (W4_of_ne m ρ c main_v30 (by decide)).trans (carried3 m ρ c).norm
  col := (W4_arr m ρ c 2).trans ((combine1_keeps_column (V3 m ρ) c).trans (carried3 m ρ c).col)
  b2 := (W4_of_ne m ρ c main_arg5 (by decide)).trans (carried3 m ρ c).b2

theorem w2_at4 : V4 m ρ c main_arg4 = (argW2 m c) := (W4_of_ne m ρ c main_arg4 (by decide)).trans (w2_at3 m ρ c)

/-! ## After the second projection -/

/-- The second projection's array: (first layer's output) · W2. -/
theorem proj2_at5 : W5 m ρ c (Proc.devRef .tc main_v48) = val_main_v54 (argX m c) (argE m c) (argW1 m c) (argB1 m c) (argW2 m c) :=
  (W5_arr m ρ c 2).trans ((project2_array (V4 m ρ) c (argX m c) (argE m c) (argW1 m c) (argB1 m c) (out1_at4 m ρ c)).trans
    (congrArg (val_main_v54 (argX m c) (argE m c) (argW1 m c) (argB1 m c)) (w2_at4 m ρ c)))
theorem carried5 : Carried m c (W5 m ρ c) where
  src := (W5_of_ne m ρ c main_v1 (by decide)).trans (carried4 m ρ c).src
  dst := (W5_of_ne m ρ c main_v3 (by decide)).trans (carried4 m ρ c).dst
  norm := (W5_of_ne m ρ c main_v30 (by decide)).trans (carried4 m ρ c).norm
  col := (W5_of_ne m ρ c main_v31 (by decide)).trans (carried4 m ρ c).col
  b2 := (W5_of_ne m ρ c main_arg5 (by decide)).trans (carried4 m ρ c).b2

/-! ## After the third stretch -/

theorem carried6 : Carried m c (W6 m ρ c) where
  src := by
    show StableHlo.after hostOps3 (W5 m ρ c) (Proc.devRef .tc main_v1) = _
    dsimp only [hostOps3]
    after_results_simp
    exact (carried5 m ρ c).src
  dst := by
    show StableHlo.after hostOps3 (W5 m ρ c) (Proc.devRef .tc main_v3) = _
    dsimp only [hostOps3]
    after_results_simp
    exact (carried5 m ρ c).dst
  norm := by
    show StableHlo.after hostOps3 (W5 m ρ c) (Proc.devRef .tc main_v30) = _
    dsimp only [hostOps3]
    after_results_simp
    exact (carried5 m ρ c).norm
  col := by
    show StableHlo.after hostOps3 (W5 m ρ c) (Proc.devRef .tc main_v31) = _
    dsimp only [hostOps3]
    after_results_simp
    exact (carried5 m ρ c).col
  b2 := by
    show StableHlo.after hostOps3 (W5 m ρ c) (Proc.devRef .tc main_arg5) = _
    dsimp only [hostOps3]
    after_results_simp
    exact (carried5 m ρ c).b2

theorem proj2_at6 : V6 m ρ c main_v48 = val_main_v54 (argX m c) (argE m c) (argW1 m c) (argB1 m c) (argW2 m c) := by
    show StableHlo.after hostOps3 (W5 m ρ c) (Proc.devRef .tc main_v48) = _
    dsimp only [hostOps3]
    after_results_simp
    exact proj2_at5 m ρ c
/-- The second bias as a row. -/
theorem bias2_at6 : V6 m ρ c main_v62 = val_main_v100 (argB2 m c) := by
    show StableHlo.after hostOps3 (W5 m ρ c) (Proc.devRef .tc main_v62) = _
    dsimp only [hostOps3]
    after_results_simp
    rw [(carried5 m ρ c).b2]
    rfl
/-- The second aggregate.  The reference computes the edge weights a second time for this layer, by the same
    operations of the same edge list: the same array. -/
theorem agg2_at6 : V6 m ρ c main_v61 = val_main_v94 (argX m c) (argE m c) (argW1 m c) (argB1 m c) (argW2 m c) := by
    show StableHlo.after hostOps3 (W5 m ρ c) (Proc.devRef .tc main_v61) = _
    dsimp only [hostOps3]
    after_results_simp
    rw [proj2_at5 m ρ c, (carried5 m ρ c).src, (carried5 m ρ c).dst, (carried5 m ρ c).norm]
    rfl

/-- The reference's second computation of the inverse square roots of the degrees is its first. -/
theorem dinv_again (x1 : (⟨Cert.ReferenceIdeal.S2x1600000, .i32⟩ : BufTy).Contents (Elt Ideal)) : val_main_v66 x1 = val_main_v16 x1 := rfl

/-- The column of inverse square roots at the second combine's entry, named by the reference's second computation. -/
theorem col_at6 : V6 m ρ c main_v31
    = broadcastInDim S50000x1 ![0] bcast_S50000_S50000x1_0 (val_main_v66 (argE m c)) := by
  rw [dinv_again]
  exact (carried6 m ρ c).col

/-! ## After the second combine: the result -/

/-- The kernel's result array is the reference's last stage of the six arguments. -/
theorem result_at7 : W7 m ρ c (Proc.devRef .tc main_v63) = val_main_v102 (argX m c) (argE m c) (argW1 m c) (argB1 m c) (argW2 m c) (argB2 m c) :=
  (W7_arr m ρ c 4).trans (combine2_array (V6 m ρ) c (argX m c) (argE m c) (argW1 m c) (argB1 m c) (argW2 m c) (argB2 m c) (agg2_at6 m ρ c) (proj2_at6 m ρ c)
    (col_at6 m ρ c) (bias2_at6 m ρ c))

end Cert.KernelIdeal.Whole

end
-- ==== Proof.lean ====
/-
  Two layers of graph convolution over 50000 nodes and 1.6 million edges: the kernel against its reference,
  equal as extended reals.

  Both programs compute, per layer, `out = (Σ over edges (s → t) of h[s] · d[s] · d[t], summed at t) + h · d² + b`
  with `h` the layer's input times its weight matrix and `d` the inverse square roots of the degrees (each node
  counted once more for its self loop); the first layer's output passes through `max(·, 0)`.  The reference is one
  host program.  The kernel keeps the gathers and scatter-adds on the host, exactly as the reference writes them,
  and runs four grid regions: each projection `h = input · W` over 25 blocks of 2000 rows (the whole contraction
  inside one block, so a block's entry is the plain sum over the 128 contracted positions), and each combine
  `agg + h · d² + b` over the same blocks.  No law of arithmetic is needed to join the two sides — not even
  finiteness of the inputs: every entry is the same expression of the same entries on both sides.  What has to
  be shown is bookkeeping of values: that 25 row blocks written back one after the other leave the whole
  product, or the whole combined array; that the column `d`, squared inside the body after it is spread over a
  block's features, is the reference's `d²` spread over the features; and that the kernel's single computation of
  `d` and of the edge weights is the reference's, which repeats it in its second layer.

  The modules: `KernelRun` (the kernel's run with its result array named), `Project1`, `Combine1`, `Project2`,
  `Combine2` (each region's result array as one function of its input arrays, for any contents at its entry),
  `Chain` (the contents at every boundary between the seven segments of the kernel's @main, each named by the
  stage of the reference that computes the same array).  The idealization rewrote no operation, so the
  kernel's idealized program is its own text read over the extended reals.
-/
import proofs.«127377_j82540681494813_1_alg».proof.Defs
import proofs.«127377_j82540681494813_1_alg».proof.Proof.Gen.Kernel
import proofs.«127377_j82540681494813_1_alg».proof.Proof.Gen.Kernel.Skeleton
import proofs.«127377_j82540681494813_1_alg».proof.Proof.Gen.Kernel.Launch
import proofs.«127377_j82540681494813_1_alg».proof.Proof.Gen.Kernel.Points
import proofs.«127377_j82540681494813_1_alg».proof.Proof.Gen.Kernel.Frame
import proofs.«127377_j82540681494813_1_alg».proof.Proof.Gen.KernelIdeal
import proofs.«127377_j82540681494813_1_alg».proof.Proof.Gen.KernelIdeal.Skeleton
import proofs.«127377_j82540681494813_1_alg».proof.Proof.Gen.KernelIdeal.Launch
import proofs.«127377_j82540681494813_1_alg».proof.Proof.Gen.KernelIdeal.Points
import proofs.«127377_j82540681494813_1_alg».proof.Proof.Gen.KernelIdeal.Frame
import proofs.«127377_j82540681494813_1_alg».proof.Proof.Gen.ReferenceIdeal
import proofs.«127377_j82540681494813_1_alg».proof.Proof.Gen.ReferenceIdeal.Run
import proofs.«127377_j82540681494813_1_alg».proof.Proof.Gen.ReferenceIdeal.Read
import proofs.«127377_j82540681494813_1_alg».proof.Proof.Gen.Pre_finite_inputs
import proofs.«127377_j82540681494813_1_alg».proof.Proof.KernelRun
import proofs.«127377_j82540681494813_1_alg».proof.Proof.Chain
import Idealize.ShloMosaic.Adequacy
import Idealize.ShloMosaic.Init

noncomputable section

namespace Cert.Proof

open Idealize.ShloMosaic Idealize.SL.Sem

/-- The kernel as printed runs to the end, nothing faulting, its arguments unchanged. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the six arguments both programs end with the same array: the kernel's result is
    the reference's last stage of the arguments (`Chain`), and so is the reference's own. -/
theorem algebraic : Cert.algebraic_KernelIdeal_ReferenceIdeal := by
  intro m ρ m' ρ' _ hagree
  refine ⟨_, (θ_run Cert.KernelIdeal.defs _ _).mono
      (fun r h c => ⟨(h c).1.trans (Cert.KernelIdeal.Whole.result_at7 m ρ c), (h c).2⟩)
      (Cert.KernelIdeal.Whole.run_result (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v102_eq, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
